-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x256x32 : Shape := ⟨4, ![16, 8, 256, 32]⟩
abbrev S1 : Shape := ⟨1, ![1]⟩
abbrev S16x1x256x256 : Shape := ⟨4, ![16, 1, 256, 256]⟩
abbrev S1x8x1x1x32 : Shape := ⟨5, ![1, 8, 1, 1, 32]⟩
abbrev S_ : Shape := ⟨0, ![]⟩

class Facts : Prop where
  bcast_S_S16x8x256x32 : S_.BroadcastsInDim S16x8x256x32 (![] : Fin 0 → Fin S16x8x256x32.rank)
  reducesTo_S16x8x256x32_S_d0_1_2_3 : S16x8x256x32.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S1x8x1x1x32 : S_.BroadcastsInDim S1x8x1x1x32 (![] : Fin 0 → Fin S1x8x1x1x32.rank)
  reducesTo_S1x8x1x1x32_S_d0_1_2_3_4 : S1x8x1x1x32.ReducesTo [0, 1, 2, 3, 4] S_

variable [Facts]

def fn_part1 {F : FTy → Type} [FloatOps F] (main_v13 : IVec S_ 1) (main_v16 : IVec S1x8x1x1x32 1) : IVec S_ 1 :=
  let main_c_5 : IVec S_ 1 := constantI S_ 1 1#1
  let main_v17 : IVec S_ 1 := (fun x v => Host.reduce IntOp.andi x v reducesTo_S1x8x1x1x32_S_d0_1_2_3_4 h_S_) main_v16 main_c_5
  let main_v18 : IVec S_ 1 := andi main_v13 main_v17
  main_v18

def fn {F : FTy → Type} [FloatOps F] (main_arg0 : FVec F S16x8x256x32 .f32) (main_arg1 : FVec F S16x8x256x32 .f32) (main_arg2 : FVec F S1 .f32) (main_arg3 : IVec S16x1x256x256 1) (main_arg4 : FVec F S1x8x1x1x32 .f32) : IVec S_ 1 :=
  let main_v0 : FVec F S16x8x256x32 .f32 := Host.absf main_arg0
  let main_cst : FVec F S_ .f32 := constant S_ .f32 0x7F800000#32
  let main_v1 : FVec F S16x8x256x32 .f32 := broadcastInDim S16x8x256x32 ![] bcast_S_S16x8x256x32 main_cst
  let main_v2 : IVec S16x8x256x32 1 := cmpf .olt main_v0 main_v1
  let main_c : IVec S_ 1 := constantI S_ 1 1#1
  let main_v3 : IVec S_ 1 := (fun x v => Host.reduce IntOp.andi x v reducesTo_S16x8x256x32_S_d0_1_2_3 h_S_) main_v2 main_c
  let main_v4 : FVec F S16x8x256x32 .f32 := Host.absf main_arg1
  let main_cst_0 : FVec F S_ .f32 := constant S_ .f32 0x7F800000#32
  let main_v5 : FVec F S16x8x256x32 .f32 := broadcastInDim S16x8x256x32 ![] bcast_S_S16x8x256x32 main_cst_0
  let main_v6 : IVec S16x8x256x32 1 := cmpf .olt main_v4 main_v5
  let main_c_1 : IVec S_ 1 := constantI S_ 1 1#1
  let main_v7 : IVec S_ 1 := (fun x v => Host.reduce IntOp.andi x v reducesTo_S16x8x256x32_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x8x1x1x32 .f32 := Host.absf main_arg4
  let main_cst_4 : FVec F S_ .f32 := constant S_ .f32 0x7F800000#32
  let main_v15 : FVec F S1x8x1x1x32 .f32 := broadcastInDim S1x8x1x1x32 ![] bcast_S_S1x8x1x1x32 main_cst_4
  let main_v16 : IVec S1x8x1x1x32 1 := cmpf .olt main_v14 main_v15
  fn_part1 (F := F) main_v13 main_v16
-- ==== Kernel.lean ====
abbrev S16x8x256x32 : Shape := ⟨4, ![16, 8, 256, 32]⟩
abbrev S1 : Shape := ⟨1, ![1]⟩
abbrev S16x1x256x256 : Shape := ⟨4, ![16, 1, 256, 256]⟩
abbrev S1x8x1x1x32 : Shape := ⟨5, ![1, 8, 1, 1, 32]⟩
abbrev S16x8x256x256 : Shape := ⟨4, ![16, 8, 256, 256]⟩
abbrev S1x1x256x32 : Shape := ⟨4, ![1, 1, 256, 32]⟩
abbrev S1x1x256x256 : Shape := ⟨4, ![1, 1, 256, 256]⟩
abbrev S1x1x1x1x32 : Shape := ⟨5, ![1, 1, 1, 1, 32]⟩
abbrev S256x32 : Shape := ⟨2, ![256, 32]⟩
abbrev S32 : Shape := ⟨1, ![32]⟩
abbrev S256x256 : Shape := ⟨2, ![256, 256]⟩
abbrev S256x1x32 : Shape := ⟨3, ![256, 1, 32]⟩
abbrev S1x256x32 : Shape := ⟨3, ![1, 256, 32]⟩
abbrev S256x256x32 : Shape := ⟨3, ![256, 256, 32]⟩
abbrev S1x1x32 : Shape := ⟨3, ![1, 1, 32]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16x8x256x32, .f32⟩
  | .hbm, ⟨1, _⟩ => ⟨S16x8x256x32, .f32⟩
  | .hbm, ⟨2, _⟩ => ⟨S1, .f32⟩
  | .hbm, ⟨3, _⟩ => ⟨S16x1x256x256, .i1⟩
  | .hbm, ⟨4, _⟩ => ⟨S1x8x1x1x32, .f32⟩
  | .hbm, ⟨5, _⟩ => ⟨S16x1x256x256, .i32⟩
  | .hbm, ⟨6, _⟩ => ⟨S16x8x256x256, .f32⟩
  | .local _ .vmem, ⟨0, _⟩ => ⟨S1x1x256x32, .f32⟩
  | .local _ .vmem, ⟨1, _⟩ => ⟨S1x1x256x32, .f32⟩
  | .local _ .vmem, ⟨2, _⟩ => ⟨S1x1x256x32, .f32⟩
  | .local _ .vmem, ⟨3, _⟩ => ⟨S1x1x256x32, .f32⟩
  | .local _ .vmem, ⟨4, _⟩ => ⟨S1x1x256x256, .i32⟩
  | .local _ .vmem, ⟨5, _⟩ => ⟨S1x1x256x256, .i32⟩
  | .local _ .vmem, ⟨6, _⟩ => ⟨S1x1x1x1x32, .f32⟩
  | .local _ .vmem, ⟨7, _⟩ => ⟨S1x1x1x1x32, .f32⟩
  | .local _ .vmem, ⟨8, _⟩ => ⟨S1x1x256x256, .f32⟩
  | .local _ .vmem, ⟨9, _⟩ => ⟨S1x1x256x256, .f32⟩
  | _, _ => ⟨S16x8x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  inb_S1x1x256x32_S1x1x256x32_0_0_0_0 : ∀ a, (![0, 0, 0, 0] : Fin 4 → Nat) a + S1x1x256x32.size a ≤ S1x1x256x32.size a
  h_S1x1x256x32 : 0 < S1x1x256x32.numel
  shapeCasts_S1x1x256x32_S256x32 : S1x1x256x32.ShapeCasts S256x32
  inb_S1x1x1x1x32_S1x1x1x1x32_0_0_0_0_0 : ∀ a, (![0, 0, 0, 0, 0] : Fin 5 → Nat) a + S1x1x1x1x32.size a ≤ S1x1x1x1x32.size a
  h_S1x1x1x1x32 : 0 < S1x1x1x1x32.numel
  shapeCasts_S1x1x1x1x32_S32 : S1x1x1x1x32.ShapeCasts S32
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  shapeCasts_S256x32_S256x1x32 : S256x32.ShapeCasts S256x1x32
  shapeCasts_S256x32_S1x256x32 : S256x32.ShapeCasts S1x256x32
  broadcasts_S256x1x32_S256x256x32 : S256x1x32.Broadcasts S256x256x32
  broadcasts_S1x256x32_S256x256x32 : S1x256x32.Broadcasts S256x256x32
  shapeCasts_S32_S1x1x32 : S32.ShapeCasts S1x1x32
  broadcasts_S1x1x32_S256x256x32 : S1x1x32.Broadcasts S256x256x32
  reduces_S256x256x32_S256x256 : S256x256x32.Reduces [2] S256x256
  reduces_S256x256_S256 : S256x256.Reduces [1] S256
  shapeCasts_S256_S256x1 : S256.ShapeCasts S256x1
  broadcasts_S256x1_S256x256 : S256x1.Broadcasts S256x256
  shapeCasts_S256x256_S1x1x256x256 : S256x256.ShapeCasts S1x1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x32.size a ≤ S16x8x256x32.size a
  hwx0_0 : ∀ i : grid0.Coords, EltTy.bits .f32 = 32 ∨ (Rect.block (s := S16x8x256x32) S1x1x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x32.size a ≤ S16x8x256x32.size a
  hwx0_1 : ∀ i : grid0.Coords, EltTy.bits .f32 = 32 ∨ (Rect.block (s := S16x8x256x32) S1x1x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S16x1x256x256.size a
  hwx0_2 : ∀ i : grid0.Coords, EltTy.bits .i32 = 32 ∨ (Rect.block (s := S16x1x256x256) S1x1x256x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1x32.size a ≤ S1x8x1x1x32.size a
  hwx0_3 : ∀ i : grid0.Coords, EltTy.bits .f32 = 32 ∨ (Rect.block (s := S1x8x1x1x32) S1x1x1x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x256.size a ≤ S16x8x256x256.size a
  hwx0_4 : ∀ i : grid0.Coords, EltTy.bits .f32 = 32 ∨ (Rect.block (s := S16x8x256x256) S1x1x256x256.size (cc0_transform_4 i) (hinb0_4 i)).WholeWords (EltTy.packing .f32)

variable [Facts₀]

abbrev win0_0 : Pipeline.Window sig grid0 :=
  Pipeline.Window.ofSpec (Memref.whole main_arg0) S1x1x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x1x1x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8x256x32 : Shape := ⟨4, ![16, 8, 256, 32]⟩
abbrev S1 : Shape := ⟨1, ![1]⟩
abbrev S16x1x256x256 : Shape := ⟨4, ![16, 1, 256, 256]⟩
abbrev S1x8x1x1x32 : Shape := ⟨5, ![1, 8, 1, 1, 32]⟩
abbrev S16x8x256x1x32 : Shape := ⟨5, ![16, 8, 256, 1, 32]⟩
abbrev S16x8x1x256x32 : Shape := ⟨5, ![16, 8, 1, 256, 32]⟩
abbrev S16x8x256x256x32 : Shape := ⟨5, ![16, 8, 256, 256, 32]⟩
abbrev S_ : Shape := ⟨0, ![]⟩
abbrev S16x8x256x256 : Shape := ⟨4, ![16, 8, 256, 256]⟩
abbrev S16x8x256 : Shape := ⟨3, ![16, 8, 256]⟩
abbrev S16x8x256x1 : Shape := ⟨4, ![16, 8, 256, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x8x256x32, .f32⟩
  | .hbm, ⟨1, _⟩ => ⟨S16x8x256x32, .f32⟩
  | .hbm, ⟨2, _⟩ => ⟨S1, .f32⟩
  | .hbm, ⟨3, _⟩ => ⟨S16x1x256x256, .i1⟩
  | .hbm, ⟨4, _⟩ => ⟨S1x8x1x1x32, .f32⟩
  | .hbm, ⟨5, _⟩ => ⟨S16x8x256x1x32, .f32⟩
  | .hbm, ⟨6, _⟩ => ⟨S16x8x1x256x32, .f32⟩
  | .hbm, ⟨7, _⟩ => ⟨S16x8x256x256x32, .f32⟩
  | .hbm, ⟨8, _⟩ => ⟨S16x8x256x256x32, .f32⟩
  | .hbm, ⟨9, _⟩ => ⟨S16x8x256x256x32, .f32⟩
  | .hbm, ⟨10, _⟩ => ⟨S16x8x256x256x32, .f32⟩
  | .hbm, ⟨11, _⟩ => ⟨S16x8x256x256x32, .f32⟩
  | .hbm, ⟨12, _⟩ => ⟨S_, .f32⟩
  | .hbm, ⟨13, _⟩ => ⟨S16x8x256x256x32, .f32⟩
  | .hbm, ⟨14, _⟩ => ⟨S16x8x256x256x32, .f32⟩
  | .hbm, ⟨15, _⟩ => ⟨S_, .f32⟩
  | .hbm, ⟨16, _⟩ => ⟨S16x8x256x256x32, .f32⟩
  | .hbm, ⟨17, _⟩ => ⟨S16x8x256x256x32, .f32⟩
  | .hbm, ⟨18, _⟩ => ⟨S16x8x256x256x32, .f32⟩
  | .hbm, ⟨19, _⟩ => ⟨S16x8x256x256x32, .f32⟩
  | .hbm, ⟨20, _⟩ => ⟨S16x8x256x256x32, .f32⟩
  | .hbm, ⟨21, _⟩ => ⟨S_, .f32⟩
  | .hbm, ⟨22, _⟩ => ⟨S16x8x256x256, .f32⟩
  | .hbm, ⟨23, _⟩ => ⟨S_, .f32⟩
  | .hbm, ⟨24, _⟩ => ⟨S16x8x256x256, .i1⟩
  | .hbm, ⟨25, _⟩ => ⟨S16x8x256x256, .f32⟩
  | .hbm, ⟨26, _⟩ => ⟨S16x8x256x256, .f32⟩
  | .hbm, ⟨27, _⟩ => ⟨S_, .f32⟩
  | .hbm, ⟨28, _⟩ => ⟨S16x8x256, .f32⟩
  | .hbm, ⟨29, _⟩ => ⟨S_, .f32⟩
  | .hbm, ⟨30, _⟩ => ⟨S16x8x256, .f32⟩
  | .hbm, ⟨31, _⟩ => ⟨S16x8x256, .f32⟩
  | .hbm, ⟨32, _⟩ => ⟨S16x8x256x1, .f32⟩
  | .hbm, ⟨33, _⟩ => ⟨S16x8x256x256, .f32⟩
  | .hbm, ⟨34, _⟩ => ⟨S16x8x256x256, .f32⟩
  | .hbm, ⟨35, _⟩ => ⟨S16x8x256x256, .f32⟩
  | .hbm, ⟨36, _⟩ => ⟨S_, .f32⟩
  | .hbm, ⟨37, _⟩ => ⟨S16x8x256, .f32⟩
  | .hbm, ⟨38, _⟩ => ⟨S16x8x256x1, .f32⟩
  | .hbm, ⟨39, _⟩ => ⟨S16x8x256x256, .f32⟩
  | .hbm, ⟨40, _⟩ => ⟨S16x8x256x256, .f32⟩
  | _, _ => ⟨S16x8x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S16x8x256x32_S16x8x256x1x32_0_1_2_4 : S16x8x256x32.BroadcastsInDim S16x8x256x1x32 (![0, 1, 2, 4] : Fin 4 → Fin S16x8x256x1x32.rank)
  bcast_S16x8x256x32_S16x8x1x256x32_0_1_3_4 : S16x8x256x32.BroadcastsInDim S16x8x1x256x32 (![0, 1, 3, 4] : Fin 4 → Fin S16x8x1x256x32.rank)
  bcast_S16x8x256x1x32_S16x8x256x256x32_0_1_2_3_4 : S16x8x256x1x32.BroadcastsInDim S16x8x256x256x32 (![0, 1, 2, 3, 4] : Fin 5 → Fin S16x8x256x256x32.rank)
  bcast_S16x8x1x256x32_S16x8x256x256x32_0_1_2_3_4 : S16x8x1x256x32.BroadcastsInDim S16x8x256x256x32 (![0, 1, 2, 3, 4] : Fin 5 → Fin S16x8x256x256x32.rank)
  bcast_S_S16x8x256x256x32 : S_.BroadcastsInDim S16x8x256x256x32 (![] : Fin 0 → Fin S16x8x256x256x32.rank)
  bcast_S1x8x1x1x32_S16x8x256x256x32_0_1_2_3_4 : S1x8x1x1x32.BroadcastsInDim S16x8x256x256x32 (![0, 1, 2, 3, 4] : Fin 5 → Fin S16x8x256x256x32.rank)
  reducesTo_S16x8x256x256x32_S16x8x256x256_d4 : S16x8x256x256x32.ReducesTo [4] S16x8x256x256
  h_S_ : 0 < S_.numel
  bcast_S16x1x256x256_S16x8x256x256_0_1_2_3 : S16x1x256x256.BroadcastsInDim S16x8x256x256 (![0, 1, 2, 3] : Fin 4 → Fin S16x8x256x256.rank)
  bcast_S_S16x8x256x256 : S_.BroadcastsInDim S16x8x256x256 (![] : Fin 0 → Fin S16x8x256x256.rank)
  reducesTo_S16x8x256x256_S16x8x256_d3 : S16x8x256x256.ReducesTo [3] S16x8x256
  bcast_S_S16x8x256 : S_.BroadcastsInDim S16x8x256 (![] : Fin 0 → Fin S16x8x256.rank)
  bcast_S16x8x256_S16x8x256x1_0_1_2 : S16x8x256.BroadcastsInDim S16x8x256x1 (![0, 1, 2] : Fin 3 → Fin S16x8x256x1.rank)
  bcast_S16x8x256x1_S16x8x256x256_0_1_2_3 : S16x8x256x1.BroadcastsInDim S16x8x256x256 (![0, 1, 2, 3] : Fin 4 → Fin S16x8x256x256.rank)

variable [Facts₀]

class Facts : Prop extends Facts₀ where

variable [Facts]
-- ==== Proof.Spec.lean ====
/-
  The attention weights that the kernel and its reference both compute, as ONE function of the argument arrays,
  index by index, over the extended reals.

  For a batch entry `b`, a head `h`, a query row `i` and a key row `j`:
    * the score is the sum over the head's 32 coordinates `d` of `silu (q[b,h,i,d] + k[b,h,j,d]) * a[0,h,0,0,d]`,
      where `silu s = s * logistic s`;
    * a masked pair (`mask[b,0,i,j]` set) takes the finite fill (the least finite f32) instead of its score;
    * the weight is the softmax of the masked scores along `j`: with `M` the maximum of `-∞` and the row's masked
      scores, `exp (s_j - M)` over the sum along the row of the same exponentials.
  Nothing here depends on a program: both programs are shown to compute `attn`.
-/
import Idealize.ShloMosaic.PureOps.Ideal
import Idealize.ShloMosaic.PureOps.Ideal.Laws
import Idealize.ShloMosaic.Lib.ValueIdx

noncomputable section

namespace Cert.Gat

open Idealize.ShloMosaic Idealize.ShloMosaic.ValueIdx

/-- The shape of the queries and of the keys: batch, head, row, head coordinate. -/
abbrev QK : Shape := ⟨4, ![16, 8, 256, 32]⟩
/-- The shape of the mask: batch, one shared head, query row, key row. -/
abbrev Msk : Shape := ⟨4, ![16, 1, 256, 256]⟩
/-- The shape of the learned attention vector: one per head. -/
abbrev Att : Shape := ⟨5, ![1, 8, 1, 1, 32]⟩
/-- The shape of the result: batch, head, query row, key row. -/
abbrev Out : Shape := ⟨4, ![16, 8, 256, 256]⟩

/-- The value a masked pair takes: the least finite f32. -/
abbrev fill : EReal := Ideal.ofBits .f32 0xFF7FFFFF#32
/-- The value the row maximum starts from: `-∞`. -/
abbrev bottom : EReal := Ideal.ofBits .f32 0xFF800000#32

/-- The additive score of a query row `qr` against a key row `kr` under the head's vector `a`:
    `∑ d, silu (qr d + kr d) * a d`. -/
def score (qr kr a : Fin 32 → EReal) : EReal :=
  ∑ d : Fin 32, (qr d + kr d) * Ideal.logistic (qr d + kr d) * a d

/-- A masked pair takes the fill, an unmasked one keeps its score. -/
def masked (b : BitVec 1) (s : EReal) : EReal := Scalar.select b fill s

/-- The maximum of `-∞` and a row of 256 values, the row's maximum itself taken from `-∞`. -/
def rowMax (r : Fin 256 → EReal) : EReal :=
  max bottom ((Finset.univ : Finset (Fin 256)).fold max bottom r)

/-- The softmax of a row at `j`, shifted by the row's maximum. -/
def softmaxAt (r : Fin 256 → EReal) (j : Fin 256) : EReal :=
  Ideal.div (Ideal.exp (r j - rowMax r)) (∑ j' : Fin 256, Ideal.exp (r j' - rowMax r))

/-- The masked scores of query row `i` of head `h` of batch entry `b` against every key row. -/
def maskedRow (q k : QK.Idx → EReal) (mk : Msk.Idx → BitVec 1) (a : Att.Idx → EReal)
    (b : Fin 16) (h : Fin 8) (i : Fin 256) : Fin 256 → EReal :=
  fun j => masked (mk (ix4 b (0 : Fin 1) i j))
    (score (fun d => q (ix4 b h i d)) (fun d => k (ix4 b h j d)) (fun d => a (ix5 (0 : Fin 1) h (0 : Fin 1) (0 : Fin 1) d)))

/-- The attention weights: the softmax along the key rows of the masked scores. -/
def attn (q k : QK.Idx → EReal) (mk : Msk.Idx → BitVec 1) (a : Att.Idx → EReal) : Out.Idx → EReal :=
  fun o => softmaxAt (maskedRow q k mk a (o 0) (o 1) (o 2)) (o 3)

end Cert.Gat

end
-- ==== Proof.RefIsSpec.lean ====
/-
  The reference computes `Cert.Gat.attn`.

  The reference's result is read one operation at a time (the generated read-at-an-index lemmas), innermost first:
  the summand at (b, h, i, j, d) is `silu (q[b,h,i,d] + k[b,h,j,d]) * a[0,h,0,0,d]` — jax's expansion of the
  sigmoid, `1 / (1 + exp (-s))`, IS the logistic function on the extended reals —; the host's sum over `d` from
  the zero word is the score; the select against the broadcast mask is the masked score; the host's maximum-reduce
  along `j` from `-∞` is a fold of `max` over the row, so the subtracted value is the row's maximum; and the two
  keepdims broadcasts put the row's maximum and the row's sum of exponentials back beside every `j`.
-/
import proofs.«152168_j50929722196901_1_alg».proof.Proof.Gen.ReferenceIdeal.Read
import proofs.«152168_j50929722196901_1_alg».proof.Proof.Spec
import Idealize.ShloMosaic.Lib.IdealHost
import Idealize.ShloMosaic.Lib.ValueIdx
import Idealize.ShloMosaic.PureOps.Ideal.Laws

noncomputable section

namespace Cert.Gat.Ref

open Cert.ReferenceIdeal Cert.ReferenceIdeal.Gen Cert.ReferenceIdeal.Read Idealize.ShloMosaic Idealize.ShloMosaic.ValueIdx

variable (x0 x1 : (⟨S16x8x256x32, .f32⟩ : BufTy).Contents (Elt Ideal))
  (x3 : (⟨S16x1x256x256, .i1⟩ : BufTy).Contents (Elt Ideal))
  (x4 : (⟨S1x8x1x1x32, .f32⟩ : BufTy).Contents (Elt Ideal))

/-! ## Where each broadcast reads its operand -/

theorem idx_q (b : Fin 16) (h : Fin 8) (i j : Fin 256) (d : Fin 32) :
    idx_main_v0 (idx_main_v2 (ix5 b h i j d)) = ix4 b h i d :=
  funext fun a => Fin.ext (by match a with | ⟨0, _⟩ => rfl | ⟨1, _⟩ => rfl | ⟨2, _⟩ => rfl | ⟨3, _⟩ => rfl)

theorem idx_k (b : Fin 16) (h : Fin 8) (i j : Fin 256) (d : Fin 32) :
    idx_main_v1 (idx_main_v3 (ix5 b h i j d)) = ix4 b h j d :=
  funext fun a => Fin.ext (by match a with | ⟨0, _⟩ => rfl | ⟨1, _⟩ => rfl | ⟨2, _⟩ => rfl | ⟨3, _⟩ => rfl)

theorem idx_a (b : Fin 16) (h : Fin 8) (i j : Fin 256) (d : Fin 32) :
    idx_main_v6 (ix5 b h i j d) = ix5 (0 : Fin 1) h (0 : Fin 1) (0 : Fin 1) d :=
  funext fun a => Fin.ext (by match a with | ⟨0, _⟩ => rfl | ⟨1, _⟩ => rfl | ⟨2, _⟩ => rfl | ⟨3, _⟩ => rfl | ⟨4, _⟩ => rfl)

theorem idx_sum_d (b : Fin 16) (h : Fin 8) (i j : Fin 256) (d : Fin 32) :
    idx_main_v8 (ix4 b h i j) d = ix5 b h i j d :=
  funext fun a => Fin.ext (by match a with | ⟨0, _⟩ => rfl | ⟨1, _⟩ => rfl | ⟨2, _⟩ => rfl | ⟨3, _⟩ => rfl | ⟨4, _⟩ => rfl)

theorem idx_mask (b : Fin 16) (h : Fin 8) (i j : Fin 256) :
    idx_main_call1_v0 (ix4 b h i j) = ix4 b (0 : Fin 1) i j :=
  funext fun a => Fin.ext (by match a with | ⟨0, _⟩ => rfl | ⟨1, _⟩ => rfl | ⟨2, _⟩ => rfl | ⟨3, _⟩ => rfl)

theorem idx_keep_max (b : Fin 16) (h : Fin 8) (i j : Fin 256) :
    idx_main_v13 (idx_main_v14 (ix4 b h i j)) = ix3 b h i :=
  funext fun a => Fin.ext (by match a with | ⟨0, _⟩ => rfl | ⟨1, _⟩ => rfl | ⟨2, _⟩ => rfl)

theorem idx_keep_sum (b : Fin 16) (h : Fin 8) (i j : Fin 256) :
    idx_main_v18 (idx_main_v19 (ix4 b h i j)) = ix3 b h i :=
  funext fun a => Fin.ext (by match a with | ⟨0, _⟩ => rfl | ⟨1, _⟩ => rfl | ⟨2, _⟩ => rfl)

theorem idx_sum_j (b : Fin 16) (h : Fin 8) (i j : Fin 256) :
    idx_main_v17 (ix3 b h i) j = ix4 b h i j :=
  funext fun a => Fin.ext (by match a with | ⟨0, _⟩ => rfl | ⟨1, _⟩ => rfl | ⟨2, _⟩ => rfl | ⟨3, _⟩ => rfl)

/-! ## The stages, innermost first -/

/-- The summand: `silu (q + k) * a`, the sigmoid spelt `1 / (1 + exp (-s))` being the logistic function. -/
theorem summand_at (b : Fin 16) (h : Fin 8) (i j : Fin 256) (d : Fin 32) :
    val_main_v7 (F := Ideal) x0 x1 x4 (ix5 b h i j d)
      = (x0 (ix4 b h i d) + x1 (ix4 b h j d)) * Ideal.logistic (x0 (ix4 b h i d) + x1 (ix4 b h j d))
          * x4 (ix5 (0 : Fin 1) h (0 : Fin 1) (0 : Fin 1) d) := by
  rw [val_main_v7_apply, val_main_v5_apply, val_main_v6_apply, val_main_call0_v5_apply, val_main_call0_v4_apply,
    val_main_call0_cst_0_apply, val_main_call0_v3_apply, val_main_call0_v2_apply, val_main_call0_cst_apply,
    val_main_call0_v1_apply, val_main_call0_v0_apply, val_main_v4_apply, val_main_v2_apply, val_main_v3_apply,
    val_main_v0_apply, val_main_v1_apply, idx_q, idx_k, idx_a]
  simp only [Ideal.mulf_def, Ideal.addf_def, Ideal.hostDivf_def, Ideal.hostUnary_exp_def, Ideal.hostNegf_def,
    Ideal.negf_def, Ideal.ofBits_def, Ideal.ofBits_one_f32]
  rfl

/-- The host's sum over the head's coordinates, from the zero word, is the score. -/
theorem score_at (b : Fin 16) (h : Fin 8) (i j : Fin 256) :
    val_main_v8 (F := Ideal) x0 x1 x4 (ix4 b h i j)
      = score (fun d => x0 (ix4 b h i d)) (fun d => x1 (ix4 b h j d))
          (fun d => x4 (ix5 (0 : Fin 1) h (0 : Fin 1) (0 : Fin 1) d)) := by
  rw [val_main_v8_apply, val_main_cst_apply]
  simp only [idx_sum_d, summand_at, Ideal.ofBits_def, Ideal.ofBits_zero_f32, zero_add]
  rfl

/-- The select against the mask, broadcast over the heads, is the masked score. -/
theorem masked_at (b : Fin 16) (h : Fin 8) (i j : Fin 256) :
    val_main_v9 (F := Ideal) x0 x1 x3 x4 (ix4 b h i j) = maskedRow x0 x1 x3 x4 b h i j := by
  rw [val_main_v9_apply, val_main_call1_v0_apply, val_main_call1_v1_apply, val_main_cst_0_apply, score_at, idx_mask]
  rfl

/-- The reduction along the key rows drops the last axis. -/
theorem drops_j : S16x8x256x256.Reduces [3] S16x8x256 := by decide

/-- The host's maximum-reduce along the key rows from `-∞`, joined once more with `-∞`, is the row's maximum. -/
theorem rowMax_at (b : Fin 16) (h : Fin 8) (i : Fin 256) :
    val_main_v12 (F := Ideal) x0 x1 x3 x4 (ix3 b h i) = rowMax (maskedRow x0 x1 x3 x4 b h i) := by
  have e : (val_main_v9 (F := Ideal) x0 x1 x3 x4) ∘ drops_j.lift (ix3 b h i) = maskedRow x0 x1 x3 x4 b h i := by
    refine funext fun (j : Fin 256) => ?_
    have ej : drops_j.lift (ix3 b h i) j = ix4 b h i j :=
      funext fun a => Fin.ext (by match a with | ⟨0, _⟩ => rfl | ⟨1, _⟩ => rfl | ⟨2, _⟩ => rfl | ⟨3, _⟩ => rfl)
    exact (congrArg (val_main_v9 (F := Ideal) x0 x1 x3 x4) ej).trans (masked_at x0 x1 x3 x4 b h i j)
  rw [val_main_v12_apply, val_main_v11_apply, val_main_cst_2_apply]
  unfold val_main_v10 rowMax
  refine congrArg (max bottom) ?_
  have hfold := Host.reduce_eq_fold_single (α := EReal) (FloatOps.maximumf (F := Ideal) (φ := .f32))
    (val_main_v9 (F := Ideal) x0 x1 x3 x4) (val_main_cst_1 (F := Ideal))
    reducesTo_S16x8x256x256_S16x8x256_d3 drops_j h_S_ (ix3 b h i)
  rw [e] at hfold
  exact hfold

/-- The exponential of the masked score less the row's maximum (the maximum kept as a column and broadcast back). -/
theorem exp_at (b : Fin 16) (h : Fin 8) (i j : Fin 256) :
    val_main_v16 (F := Ideal) x0 x1 x3 x4 (ix4 b h i j)
      = Ideal.exp (maskedRow x0 x1 x3 x4 b h i j - rowMax (maskedRow x0 x1 x3 x4 b h i)) := by
  rw [val_main_v16_apply, val_main_v15_apply, val_main_v14_apply, val_main_v13_apply, idx_keep_max, rowMax_at, masked_at]
  rfl

/-- The host's sum along the key rows, from the zero word, of those exponentials. -/
theorem expSum_at (b : Fin 16) (h : Fin 8) (i : Fin 256) :
    val_main_v17 (F := Ideal) x0 x1 x3 x4 (ix3 b h i)
      = ∑ j : Fin 256, Ideal.exp (maskedRow x0 x1 x3 x4 b h i j - rowMax (maskedRow x0 x1 x3 x4 b h i)) := by
  rw [val_main_v17_apply, val_main_cst_3_apply]
  simp only [idx_sum_j, exp_at, Ideal.ofBits_def, Ideal.ofBits_zero_f32, zero_add]

/-! ## The result -/

/-- The reference's result, as the generated run states it, is `attn` of the arguments. -/
theorem result_eq : val_main_v20 (F := Ideal) x0 x1 x3 x4 = attn x0 x1 x3 x4 := by
  funext o
  obtain ⟨b, h, i, j, rfl⟩ : ∃ (b : Fin 16) (h : Fin 8) (i j : Fin 256), o = ix4 b h i j :=
    ⟨o 0, o 1, o 2, o 3, eq_ix4 o⟩
  rw [val_main_v20_apply, val_main_v19_apply, val_main_v18_apply, idx_keep_sum, expSum_at, exp_at]
  rfl

end Cert.Gat.Ref

end
-- ==== Proof.KernelBlock.lean ====
/-
  What one grid point of the kernel leaves in its output block, read index by index.

  A grid point holds one batch entry and one head. From its blocks — the head's queries and keys, both [256, 32], the
  batch entry's mask, [256, 256], and the head's attention vector, [32] — the body forms the sums `q_i + k_j` over
  (i, j, d), multiplies each by its sigmoid and by `a_d`, sums over the lanes `d` into the scores, replaces the masked
  scores by the finite fill, and takes the softmax along `j`: the row maximum (a maximum-reduce from `-∞`, joined once
  more with `-∞`) kept as a column and subtracted, the exponentials, their row sums kept as a column, the quotient.
  At the extended reals a lane sum from the zero word is the sum over the lane's coordinates and a maximum-reduce is the
  fold of `max` over them; the shape casts and broadcasts only move values. So the block at (i, j) is
  `Cert.Gat.softmaxAt` of the block's masked scores of row `i`, at `j`.
-/
import proofs.«152168_j50929722196901_1_alg».proof.Proof.Gen.KernelIdeal.Value
import proofs.«152168_j50929722196901_1_alg».proof.Proof.Spec
import Idealize.ShloMosaic.Lib.ValueIdx
import Idealize.ShloMosaic.Lib.Pipeline.Value
import Idealize.ShloMosaic.PureOps.Ideal.Laws

noncomputable section

namespace Cert.Gat.Kernel

open Cert.KernelIdeal Cert.KernelIdeal.Gen Cert.KernelIdeal.Value Idealize.ShloMosaic Idealize.ShloMosaic.ValueIdx

/-! ## The three reductions, read at an index -/

/-- A sum over the lanes of a [256, 256, 32] vector, at (i, j): the sum over `d` of the vector at (i, j, d). -/
theorem laneSum_at (v : FVec Ideal S256x256x32 .f32) (hφ : FKind.Formats .f32)
    (hacc : (0x00000000#32 : BitVec 32) = FKind.add.neutral .f32 hφ) (i j : Fin 256) :
    multiReduction .add [2] S256x256 v 0x00000000#32 reduces_S256x256x32_S256x256 hφ hacc (ix2 i j)
      = ∑ d : Fin 32, v (ix3 i j d) :=
  (Ideal.multiReduction_add_single v _ reduces_S256x256x32_S256x256 hφ hacc (ix2 i j)).trans
    (Finset.sum_congr rfl fun d _ => congrArg v
      (funext fun a => Fin.ext (by match a with | ⟨0, _⟩ => rfl | ⟨1, _⟩ => rfl | ⟨2, _⟩ => rfl)))

/-- A sum along the rows of a [256, 256] vector, at i: the sum over `j` of the vector at (i, j). -/
theorem rowSum_at (w : FVec Ideal S256x256 .f32) (hφ : FKind.Formats .f32)
    (hacc : (0x00000000#32 : BitVec 32) = FKind.add.neutral .f32 hφ) (i : Fin 256) :
    multiReduction .add [1] S256 w 0x00000000#32 reduces_S256x256_S256 hφ hacc (ix1 i)
      = ∑ j : Fin 256, w (ix2 i j) :=
  (Ideal.multiReduction_add_single w _ reduces_S256x256_S256 hφ hacc (ix1 i)).trans
    (Finset.sum_congr rfl fun j _ => congrArg w
      (funext fun a => Fin.ext (by match a with | ⟨0, _⟩ => rfl | ⟨1, _⟩ => rfl)))

/-- A maximum along the rows of a [256, 256] vector from `-∞`, at i: the fold of `max` over `j` from `-∞`. -/
theorem rowFold_at (w : FVec Ideal S256x256 .f32) (hφ : FKind.Formats .f32)
    (hacc : (0xFF800000#32 : BitVec 32) = FKind.maximumf.neutral .f32 hφ) (i : Fin 256) :
    multiReduction .maximumf [1] S256 w 0xFF800000#32 reduces_S256x256_S256 hφ hacc (ix1 i)
      = (Finset.univ : Finset (Fin 256)).fold max bottom (fun j => w (ix2 i j)) := by
  refine (Ideal.multiReduction_maximumf_single w _ reduces_S256x256_S256 hφ hacc (ix1 i)).trans ?_
  have e : w ∘ reduces_S256x256_S256.lift (ix1 i) = fun j : Fin 256 => w (ix2 i j) :=
    funext fun (j : Fin 256) => congrArg w
      (funext fun a => Fin.ext (by match a with | ⟨0, _⟩ => rfl | ⟨1, _⟩ => rfl))
  rw [e]
  rfl

/-! ## The shape casts and broadcasts, read at an index -/

section Layout

variable (P0 : Vec Ideal S1x1x256x256 .i32) (P1 P2 : Vec Ideal S1x1x256x32 .f32) (P3 : Vec Ideal S1x1x1x1x32 .f32)

/-- The queries laid over (i, j, d): row `i`'s coordinate `d`, whatever `j`. -/
theorem queries_at (i j : Fin 256) (d : Fin 32) :
    broadcastTo S256x256x32 (shapeCast S256x1x32 (shapeCast S256x32 P1 shapeCasts_S1x1x256x32_S256x32)
      shapeCasts_S256x32_S256x1x32) broadcasts_S256x1x32_S256x256x32 (ix3 i j d)
      = P1 (ix4 (0 : Fin 1) (0 : Fin 1) i d) := by
  refine (broadcastTo_apply _ _ (ix3 i j d) (ix3 i (0 : Fin 1) d) (fun a => match a with
    | ⟨0, _⟩ => by show i.val = (if (256 : Nat) = 1 then 0 else i.val); rw [if_neg (by decide)]
    | ⟨1, _⟩ => by show 0 = (if (1 : Nat) = 1 then 0 else j.val); rw [if_pos rfl]
    | ⟨2, _⟩ => by show d.val = (if (32 : Nat) = 1 then 0 else d.val); rw [if_neg (by decide)])).trans ?_
  refine (shapeCast_apply _ _ (ix3 i (0 : Fin 1) d) (ix2 i d) (by
    rw [Shape.rowMajor_val_two, Shape.rowMajor_val_three]
    show i.val * 32 + d.val = (i.val * 1 + 0) * 32 + d.val; omega)).trans ?_
  exact shapeCast_apply _ _ (ix2 i d) (ix4 (0 : Fin 1) (0 : Fin 1) i d) (by
    rw [Shape.rowMajor_val_four, Shape.rowMajor_val_two]
    show ((0 * 1 + 0) * 256 + i.val) * 32 + d.val = i.val * 32 + d.val; omega)

/-- The keys laid over (i, j, d): row `j`'s coordinate `d`, whatever `i`. -/
theorem keys_at (i j : Fin 256) (d : Fin 32) :
    broadcastTo S256x256x32 (shapeCast S1x256x32 (shapeCast S256x32 P2 shapeCasts_S1x1x256x32_S256x32)
      shapeCasts_S256x32_S1x256x32) broadcasts_S1x256x32_S256x256x32 (ix3 i j d)
      = P2 (ix4 (0 : Fin 1) (0 : Fin 1) j d) := by
  refine (broadcastTo_apply _ _ (ix3 i j d) (ix3 (0 : Fin 1) j d) (fun a => match a with
    | ⟨0, _⟩ => by show 0 = (if (1 : Nat) = 1 then 0 else i.val); rw [if_pos rfl]
    | ⟨1, _⟩ => by show j.val = (if (256 : Nat) = 1 then 0 else j.val); rw [if_neg (by decide)]
    | ⟨2, _⟩ => by show d.val = (if (32 : Nat) = 1 then 0 else d.val); rw [if_neg (by decide)])).trans ?_
  refine (shapeCast_apply _ _ (ix3 (0 : Fin 1) j d) (ix2 j d) (by
    rw [Shape.rowMajor_val_two, Shape.rowMajor_val_three]
    show j.val * 32 + d.val = (0 * 256 + j.val) * 32 + d.val; omega)).trans ?_
  exact shapeCast_apply _ _ (ix2 j d) (ix4 (0 : Fin 1) (0 : Fin 1) j d) (by
    rw [Shape.rowMajor_val_four, Shape.rowMajor_val_two]
    show ((0 * 1 + 0) * 256 + j.val) * 32 + d.val = j.val * 32 + d.val; omega)

/-- The head's attention vector laid over (i, j, d): its coordinate `d`. -/
theorem vector_at (i j : Fin 256) (d : Fin 32) :
    broadcastTo S256x256x32 (shapeCast S1x1x32 (shapeCast S32 P3 shapeCasts_S1x1x1x1x32_S32)
      shapeCasts_S32_S1x1x32) broadcasts_S1x1x32_S256x256x32 (ix3 i j d)
      = P3 (ix5 (0 : Fin 1) (0 : Fin 1) (0 : Fin 1) (0 : Fin 1) d) := by
  refine (broadcastTo_apply _ _ (ix3 i j d) (ix3 (0 : Fin 1) (0 : Fin 1) d) (fun a => match a with
    | ⟨0, _⟩ => by show 0 = (if (1 : Nat) = 1 then 0 else i.val); rw [if_pos rfl]
    | ⟨1, _⟩ => by show 0 = (if (1 : Nat) = 1 then 0 else j.val); rw [if_pos rfl]
    | ⟨2, _⟩ => by show d.val = (if (32 : Nat) = 1 then 0 else d.val); rw [if_neg (by decide)])).trans ?_
  refine (shapeCast_apply _ _ (ix3 (0 : Fin 1) (0 : Fin 1) d) (ix1 d) (by
    rw [Shape.rowMajor_val_one, Shape.rowMajor_val_three]
    show d.val = (0 * 1 + 0) * 32 + d.val; omega)).trans ?_
  exact shapeCast_apply _ _ (ix1 d) (ix5 (0 : Fin 1) (0 : Fin 1) (0 : Fin 1) (0 : Fin 1) d) (by
    rw [Shape.rowMajor_val_five, Shape.rowMajor_val_one]
    show ((((0 * 1 + 0) * 1 + 0) * 1 + 0) * 32 + d.val) = d.val; omega)

/-- The mask block as a [256, 256] vector, at (i, j). -/
theorem maskWords_at (i j : Fin 256) :
    shapeCast S256x256 P0 shapeCasts_S1x1x256x256_S256x256 (ix2 i j) = P0 (ix4 (0 : Fin 1) (0 : Fin 1) i j) :=
  shapeCast_apply _ _ (ix2 i j) (ix4 (0 : Fin 1) (0 : Fin 1) i j) (by
    rw [Shape.rowMajor_val_four, Shape.rowMajor_val_two]
    show ((0 * 1 + 0) * 256 + i.val) * 256 + j.val = i.val * 256 + j.val; omega)

/-- A value per row kept as a column and broadcast back along the row, at (i, j): the row's value. -/
theorem column_at (v : FVec Ideal S256 .f32) (i j : Fin 256) :
    broadcastTo S256x256 (shapeCast S256x1 v shapeCasts_S256_S256x1) broadcasts_S256x1_S256x256 (ix2 i j) = v (ix1 i) := by
  refine (broadcastTo_apply _ _ (ix2 i j) (ix2 i (0 : Fin 1)) (fun a => match a with
    | ⟨0, _⟩ => by show i.val = (if (256 : Nat) = 1 then 0 else i.val); rw [if_neg (by decide)]
    | ⟨1, _⟩ => by show 0 = (if (1 : Nat) = 1 then 0 else j.val); rw [if_pos rfl])).trans ?_
  exact shapeCast_apply _ _ (ix2 i (0 : Fin 1)) (ix1 i) (by
    rw [Shape.rowMajor_val_one, Shape.rowMajor_val_two]
    show i.val = i.val * 1 + 0; omega)

end Layout

/-! ## The body's intermediate vectors -/

section Body

variable (P0 : Vec Ideal S1x1x256x256 .i32) (P1 P2 : Vec Ideal S1x1x256x32 .f32) (P3 : Vec Ideal S1x1x1x1x32 .f32)

/-- `q_i + k_j` over (i, j, d). -/
def pairSums : FVec Ideal S256x256x32 .f32 :=
  addf (broadcastTo S256x256x32 (shapeCast S256x1x32 (shapeCast S256x32 P1 shapeCasts_S1x1x256x32_S256x32)
      shapeCasts_S256x32_S256x1x32) broadcasts_S256x1x32_S256x256x32)
    (broadcastTo S256x256x32 (shapeCast S1x256x32 (shapeCast S256x32 P2 shapeCasts_S1x1x256x32_S256x32)
      shapeCasts_S256x32_S1x256x32) broadcasts_S1x256x32_S256x256x32)

/-- `silu (q_i + k_j) * a` over (i, j, d). -/
def weighted : FVec Ideal S256x256x32 .f32 :=
  mulf (mulf (pairSums P1 P2) (logistic (pairSums P1 P2)))
    (broadcastTo S256x256x32 (shapeCast S1x1x32 (shapeCast S32 P3 shapeCasts_S1x1x1x1x32_S32)
      shapeCasts_S32_S1x1x32) broadcasts_S1x1x32_S256x256x32)

/-- The scores: the lane sums of the weighted values. -/
def scores : FVec Ideal S256x256 .f32 :=
  multiReduction .add [2] S256x256 (weighted P1 P2 P3) 0x00000000#32 reduces_S256x256x32_S256x256 (.inl rfl) rfl

/-- The masked scores. -/
def maskedScores : FVec Ideal S256x256 .f32 :=
  select (cmpi .ne (shapeCast S256x256 P0 shapeCasts_S1x1x256x256_S256x256) (broadcast S256x256 0#32))
    (broadcast S256x256 (Scalar.ofBits .f32 0xFF7FFFFF#32)) (scores P1 P2 P3)

/-- The maximum-reduce of the masked scores along the rows, from `-∞`. -/
def rowFolds : FVec Ideal S256 .f32 :=
  multiReduction .maximumf [1] S256 (maskedScores P0 P1 P2 P3) 0xFF800000#32 reduces_S256x256_S256 (.inl rfl) rfl

/-- The exponentials of the masked scores less their row's maximum. -/
def shifted : FVec Ideal S256x256 .f32 :=
  exp (subf (maskedScores P0 P1 P2 P3)
    (broadcastTo S256x256 (shapeCast S256x1 (maximumf (broadcast S256 (Scalar.ofBits .f32 0xFF800000#32))
      (rowFolds P0 P1 P2 P3)) shapeCasts_S256_S256x1) broadcasts_S256x1_S256x256))

/-- The row sums of those exponentials. -/
def expSums : FVec Ideal S256 .f32 :=
  multiReduction .add [1] S256 (shifted P0 P1 P2 P3) 0x00000000#32 reduces_S256x256_S256 (.inl rfl) rfl

/-- The block's masked scores of row `i`, from the blocks' entries: the mask word at (i, j) being non-zero masks the pair. -/
def blockRow (i : Fin 256) : Fin 256 → EReal :=
  fun j => masked (IntOp.cmpi .ne (P0 (ix4 (0 : Fin 1) (0 : Fin 1) i j)) 0#32)
    (score (fun d => P1 (ix4 (0 : Fin 1) (0 : Fin 1) i d)) (fun d => P2 (ix4 (0 : Fin 1) (0 : Fin 1) j d))
      (fun d => P3 (ix5 (0 : Fin 1) (0 : Fin 1) (0 : Fin 1) (0 : Fin 1) d)))

theorem weighted_at (i j : Fin 256) (d : Fin 32) :
    weighted P1 P2 P3 (ix3 i j d)
      = (P1 (ix4 (0 : Fin 1) (0 : Fin 1) i d) + P2 (ix4 (0 : Fin 1) (0 : Fin 1) j d))
          * Ideal.logistic (P1 (ix4 (0 : Fin 1) (0 : Fin 1) i d) + P2 (ix4 (0 : Fin 1) (0 : Fin 1) j d))
          * P3 (ix5 (0 : Fin 1) (0 : Fin 1) (0 : Fin 1) (0 : Fin 1) d) := by
  have hs : pairSums P1 P2 (ix3 i j d)
      = P1 (ix4 (0 : Fin 1) (0 : Fin 1) i d) + P2 (ix4 (0 : Fin 1) (0 : Fin 1) j d) :=
    congrArg₂ (· + ·) (queries_at P1 i j d) (keys_at P2 i j d)
  show pairSums P1 P2 (ix3 i j d) * Ideal.logistic (pairSums P1 P2 (ix3 i j d))
      * (broadcastTo S256x256x32 (shapeCast S1x1x32 (shapeCast S32 P3 shapeCasts_S1x1x1x1x32_S32)
          shapeCasts_S32_S1x1x32) broadcasts_S1x1x32_S256x256x32 (ix3 i j d)) = _
  rw [hs, vector_at]

theorem scores_at (i j : Fin 256) :
    scores P1 P2 P3 (ix2 i j)
      = score (fun d => P1 (ix4 (0 : Fin 1) (0 : Fin 1) i d)) (fun d => P2 (ix4 (0 : Fin 1) (0 : Fin 1) j d))
          (fun d => P3 (ix5 (0 : Fin 1) (0 : Fin 1) (0 : Fin 1) (0 : Fin 1) d)) :=
  (laneSum_at (weighted P1 P2 P3) (.inl rfl) rfl i j).trans
    (Finset.sum_congr rfl fun d _ => weighted_at P1 P2 P3 i j d)

theorem maskedScores_at (i j : Fin 256) : maskedScores P0 P1 P2 P3 (ix2 i j) = blockRow P0 P1 P2 P3 i j := by
  show Scalar.select (IntOp.cmpi .ne (shapeCast S256x256 P0 shapeCasts_S1x1x256x256_S256x256 (ix2 i j)) 0#32)
      (Scalar.ofBits (F := Ideal) .f32 0xFF7FFFFF#32) (scores P1 P2 P3 (ix2 i j)) = _
  rw [maskWords_at, scores_at]
  rfl

theorem rowFolds_at (i : Fin 256) :
    rowFolds P0 P1 P2 P3 (ix1 i) = (Finset.univ : Finset (Fin 256)).fold max bottom (blockRow P0 P1 P2 P3 i) :=
  (rowFold_at (maskedScores P0 P1 P2 P3) (.inl rfl) rfl i).trans
    (congrArg (fun r : Fin 256 → EReal => (Finset.univ : Finset (Fin 256)).fold max bottom r)
      (funext fun j => maskedScores_at P0 P1 P2 P3 i j))

theorem shifted_at (i j : Fin 256) :
    shifted P0 P1 P2 P3 (ix2 i j)
      = Ideal.exp (blockRow P0 P1 P2 P3 i j - rowMax (blockRow P0 P1 P2 P3 i)) := by
  have hc := column_at (maximumf (broadcast S256 (Scalar.ofBits (F := Ideal) .f32 0xFF800000#32)) (rowFolds P0 P1 P2 P3)) i j
  show Ideal.exp (maskedScores P0 P1 P2 P3 (ix2 i j)
      - broadcastTo S256x256 (shapeCast S256x1 (maximumf (broadcast S256 (Scalar.ofBits (F := Ideal) .f32 0xFF800000#32))
          (rowFolds P0 P1 P2 P3)) shapeCasts_S256_S256x1) broadcasts_S256x1_S256x256 (ix2 i j)) = _
  rw [hc, maskedScores_at]
  show Ideal.exp (blockRow P0 P1 P2 P3 i j - max bottom (rowFolds P0 P1 P2 P3 (ix1 i))) = _
  rw [rowFolds_at]
  rfl

theorem expSums_at (i : Fin 256) :
    expSums P0 P1 P2 P3 (ix1 i)
      = ∑ j : Fin 256, Ideal.exp (blockRow P0 P1 P2 P3 i j - rowMax (blockRow P0 P1 P2 P3 i)) :=
  (rowSum_at (shifted P0 P1 P2 P3) (.inl rfl) rfl i).trans
    (Finset.sum_congr rfl fun j _ => shifted_at P0 P1 P2 P3 i j)

/-! ## The block -/

/-- What the body leaves at (i, j) of its output block: the softmax at `j` of the block's masked scores of row `i`. -/
theorem block_at (a0 a1 : Fin 1) (i j : Fin 256) :
    E4 (F := Ideal) P0 P1 P2 P3 (ix4 a0 a1 i j) = softmaxAt (blockRow P0 P1 P2 P3 i) j := by
  have e0 : ix4_0 (ix4 a0 a1 i j) = ix4 (0 : Fin 1) (0 : Fin 1) i j :=
    funext fun a => Fin.ext (by match a with | ⟨0, _⟩ => rfl | ⟨1, _⟩ => rfl | ⟨2, _⟩ => rfl | ⟨3, _⟩ => rfl)
  have e1 : ix4_1 (ix4 a0 a1 i j) = ix2 i j :=
    funext fun a => Fin.ext (by match a with | ⟨0, _⟩ => rfl | ⟨1, _⟩ => rfl)
  have e2 : ix4_2 (ix4 a0 a1 i j) = ix1 i :=
    funext fun a => Fin.ext (by match a with | ⟨0, _⟩ => rfl)
  have e3 : ix4_3 (ix4 a0 a1 i j) = ix1 i :=
    funext fun a => Fin.ext (by match a with | ⟨0, _⟩ => rfl)
  show Ideal.div (Ideal.exp (Scalar.select (IntOp.cmpi .ne (P0 (ix4_0 (ix4 a0 a1 i j))) 0#32)
        (Scalar.ofBits (F := Ideal) .f32 0xFF7FFFFF#32) (scores P1 P2 P3 (ix4_1 (ix4 a0 a1 i j)))
      - max bottom (rowFolds P0 P1 P2 P3 (ix4_2 (ix4 a0 a1 i j)))))
    (expSums P0 P1 P2 P3 (ix4_3 (ix4 a0 a1 i j))) = _
  rw [e0, e1, e2, e3, scores_at, rowFolds_at, expSums_at]
  rfl

end Body

end Cert.Gat.Kernel

end
-- ==== Proof.KernelArray.lean ====
/-
  From the blocks to the whole array: after the kernel's run its result array is `Cert.Gat.attn` of the arguments.

  The grid has one point per batch entry `b` and head `h`. The point's output block is rows (b, h, ·, ·) of the result;
  its query and key blocks are rows (b, h, ·, ·) of `q` and `k`; its mask block is rows (b, 0, ·, ·) of the mask, which
  the host has widened from booleans to 32-bit words before the launch (a word is non-zero exactly when its boolean is
  set); its attention vector is row (0, h, 0, 0, ·). So what the point writes back — the softmax of its blocks' masked
  scores — is block (b, h) of `attn`, and the 128 blocks cover the result array.
-/
import proofs.«152168_j50929722196901_1_alg».proof.Proof.Gen.KernelIdeal.Value
import proofs.«152168_j50929722196901_1_alg».proof.Proof.KernelBlock
import proofs.«152168_j50929722196901_1_alg».proof.Proof.Spec
import Idealize.ShloMosaic.Lib.StableHlo.Run
import Idealize.ShloMosaic.Lib.Pipeline.Value
import Idealize.ShloMosaic.Lib.ValueIdx

noncomputable section

namespace Cert.Gat.Array

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

/-! ## A point's blocks' entries give the point's block of `attn` -/

/-- If the four blocks of a point hold rows (b, h), (b, h), (b, 0) and (0, h) of the arrays, the mask's words non-zero
    exactly where the boolean mask is set, then the softmax of the blocks' masked scores is `attn` at (b, h, i, j). -/
theorem point_eq (q k : QK.Idx → EReal) (mw : Msk.Idx → BitVec 32) (mk : Msk.Idx → BitVec 1) (a : Att.Idx → EReal)
    (hm : ∀ x, IntOp.cmpi .ne (mw x) 0#32 = mk x)
    (P0 : Vec Ideal S1x1x256x256 .i32) (P1 P2 : Vec Ideal S1x1x256x32 .f32) (P3 : Vec Ideal S1x1x1x1x32 .f32)
    (bt : Fin 16) (ht : Fin 8)
    (h0 : ∀ i j : Fin 256, P0 (ix4 (0 : Fin 1) (0 : Fin 1) i j) = mw (ix4 bt (0 : Fin 1) i j))
    (h1 : ∀ (i : Fin 256) (d : Fin 32), P1 (ix4 (0 : Fin 1) (0 : Fin 1) i d) = q (ix4 bt ht i d))
    (h2 : ∀ (i : Fin 256) (d : Fin 32), P2 (ix4 (0 : Fin 1) (0 : Fin 1) i d) = k (ix4 bt ht i d))
    (h3 : ∀ d : Fin 32, P3 (ix5 (0 : Fin 1) (0 : Fin 1) (0 : Fin 1) (0 : Fin 1) d)
        = a (ix5 (0 : Fin 1) ht (0 : Fin 1) (0 : Fin 1) d))
    (i j : Fin 256) :
    softmaxAt (Kernel.blockRow P0 P1 P2 P3 i) j = attn q k mk a (ix4 bt ht i j) := by
  have hr : Kernel.blockRow P0 P1 P2 P3 i = maskedRow q k mk a bt ht i := by
    funext j'
    unfold Kernel.blockRow maskedRow
    rw [h0, hm]
    simp only [h1, h2, h3]
  rw [hr]
  rfl

/-- A boolean widened to a 32-bit word is non-zero exactly when it is set. -/
theorem bit_of_word (x : BitVec 1) : IntOp.cmpi .ne (x.setWidth 32) 0#32 = x := by
  by_cases h : x = 1#1
  · subst h; decide
  · rw [eq_zero_of_ne_one h]; decide

variable (m : (ℓ : Loc nD τ sig) → Buf (Elt Ideal) ℓ) (ρ : Dev nD → PrngReg)

/-! ## The arrays as the region finds them -/

/-- The mask window's array: the host's widening of the boolean mask, entry by entry. -/
theorem maskWords (c : Dev nD) :
    (V m c main_v0 : S16x1x256x256.Idx → BitVec 32)
      = fun x => (m ((c : Thread nD τ).loc main_arg3) x).setWidth 32 := by
  dsimp only [Gen.V, Gen.hostOps0]; after_results; rfl

/-! ## The index maps over the grid -/

theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

/-- The printed index maps, decided over the 128 points: the query and key blocks move with the output block on the
    batch and head axes, the mask block on the batch axis only, the attention vector on the head axis only, and every
    other block index is zero; the output's batch and head indices stay in range. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 5) = 0 ∧ win0_3.index t (1 : Fin 5) = win0_4.index t (1 : Fin 4)
    ∧ win0_3.index t (2 : Fin 5) = 0 ∧ win0_3.index t (3 : Fin 5) = 0 ∧ win0_3.index t (4 : Fin 5) = 0
    ∧ win0_4.index t (2 : Fin 4) = 0 ∧ win0_4.index t (3 : Fin 4) = 0
    ∧ win0_4.index t (0 : Fin 4) < 16 ∧ win0_4.index t (1 : Fin 4) < 8 :=
  (by decide +kernel : ∀ t : Fin grid0.N, _)

/-- Every (batch entry, head) pair is some point's output block. -/
theorem idx_onto : ∀ (q0 : Fin 16) (q1 : Fin 8), ∃ t : Fin cfg0.N, win0_4.index t = ![q0.val, q1.val, 0, 0] :=
  (by decide +kernel : ∀ (q0 : Fin 16) (q1 : Fin 8), ∃ t : Fin grid0.N, win0_4.index t = ![q0.val, q1.val, 0, 0])

/-! ## What a point writes back -/

/-- WHAT POINT `t` WRITES BACK is block `t` of `attn` of the arrays as the region finds them. -/
theorem flushed_eq (c : Dev nD) (t : Fin cfg0.N) :
    (dats m 0 c).flushed 4 t = ((cfg0.win 4).blk t).view.read (Elt Ideal)
      (attn (V m c main_arg0) (V m c main_arg1) (m ((c : Thread nD τ).loc main_arg3)) (V m c main_arg4)) := by
  obtain ⟨f00, f01, f02, f03, f10, f11, f12, f13, f20, f21, f22, f23, f30, f31, f32, f33, f34, f42, f43, fb, fh⟩ :=
    idx_facts t
  rw [flushed4]
  unfold out0_4
  simp only [View.ld_unit_zero (S := S1x1x256x32) zeros4, View.ld_unit_zero (S := S1x1x256x256) zeros4,
    View.ld_unit_zero (S := S1x1x1x1x32) zeros5]
  funext y
  obtain ⟨a0, a1, i, j, rfl⟩ : ∃ (a0 a1 : Fin 1) (i j : Fin 256), y = ix4 a0 a1 i j :=
    ⟨y 0, y 1, y 2, y 3, eq_ix4 y⟩
  have ha0 : a0.val < 1 := a0.isLt
  have ha1 : a1.val < 1 := a1.isLt
  have hemb : ((cfg0.win 4).blk t).view.emb (ix4 a0 a1 i j)
      = ix4 (⟨win0_4.index t (0 : Fin 4), fb⟩ : Fin 16) (⟨win0_4.index t (1 : Fin 4), fh⟩ : Fin 8) i j := by
    funext a; apply Fin.ext
    match a with
    | ⟨0, _⟩ => show win0_4.index t (0 : Fin 4) * 1 + 1 * a0.val = win0_4.index t (0 : Fin 4); omega
    | ⟨1, _⟩ => show win0_4.index t (1 : Fin 4) * 1 + 1 * a1.val = win0_4.index t (1 : Fin 4); omega
    | ⟨2, _⟩ => show win0_4.index t (2 : Fin 4) * 256 + 1 * i.val = i.val; omega
    | ⟨3, _⟩ => show win0_4.index t (3 : Fin 4) * 256 + 1 * j.val = j.val; omega
  show _ = attn (V m c main_arg0) (V m c main_arg1) (m ((c : Thread nD τ).loc main_arg3)) (V m c main_arg4)
          (((cfg0.win 4).blk t).view.emb (ix4 a0 a1 i j))
  rw [hemb]
  refine (canon4_eq (F := Ideal) (iblk m c 2 t) (iblk m c 0 t) (iblk m c 1 t) (iblk m c 3 t) (ix4 a0 a1 i j)).trans ?_
  refine (Kernel.block_at (iblk m c 2 t) (iblk m c 0 t) (iblk m c 1 t) (iblk m c 3 t) a0 a1 i j).trans ?_
  refine point_eq (V m c main_arg0) (V m c main_arg1) (V m c main_v0 : S16x1x256x256.Idx → BitVec 32)
    (m ((c : Thread nD τ).loc main_arg3)) (V m c main_arg4) ?_ _ _ _ _ _ _ ?_ ?_ ?_ ?_ i j
  · intro x
    rw [maskWords]
    exact bit_of_word _
  · intro i' j'
    show V m c main_v0 (((cfg0.win 2).blk t).view.emb (ix4 (0 : Fin 1) (0 : Fin 1) i' j')) = _
    refine congrArg (V m c main_v0) (funext fun a => Fin.ext ?_)
    match a with
    | ⟨0, _⟩ => show win0_2.index t (0 : Fin 4) * 1 + 1 * 0 = win0_4.index t (0 : Fin 4); omega
    | ⟨1, _⟩ => show win0_2.index t (1 : Fin 4) * 1 + 1 * 0 = 0; omega
    | ⟨2, _⟩ => show win0_2.index t (2 : Fin 4) * 256 + 1 * i'.val = i'.val; omega
    | ⟨3, _⟩ => show win0_2.index t (3 : Fin 4) * 256 + 1 * j'.val = j'.val; omega
  · intro i' d
    show V m c main_arg0 (((cfg0.win 0).blk t).view.emb (ix4 (0 : Fin 1) (0 : Fin 1) i' d)) = _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 256 + 1 * i'.val = i'.val; omega
    | ⟨3, _⟩ => show win0_0.index t (3 : Fin 4) * 32 + 1 * d.val = d.val; omega
  · intro i' d
    show V m c main_arg1 (((cfg0.win 1).blk t).view.emb (ix4 (0 : Fin 1) (0 : Fin 1) i' d)) = _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 1 + 1 * 0 = win0_4.index t (1 : Fin 4); omega
    | ⟨2, _⟩ => show win0_1.index t (2 : Fin 4) * 256 + 1 * i'.val = i'.val; omega
    | ⟨3, _⟩ => show win0_1.index t (3 : Fin 4) * 32 + 1 * d.val = d.val; omega
  · intro d
    show V m c main_arg4 (((cfg0.win 3).blk t).view.emb
      (ix5 (0 : Fin 1) (0 : Fin 1) (0 : Fin 1) (0 : Fin 1) d)) = _
    refine congrArg (V m c main_arg4) (funext fun a => Fin.ext ?_)
    match a with
    | ⟨0, _⟩ => show win0_3.index t (0 : Fin 5) * 1 + 1 * 0 = 0; omega
    | ⟨1, _⟩ => show win0_3.index t (1 : Fin 5) * 1 + 1 * 0 = win0_4.index t (1 : Fin 4); omega
    | ⟨2, _⟩ => show win0_3.index t (2 : Fin 5) * 1 + 1 * 0 = 0; omega
    | ⟨3, _⟩ => show win0_3.index t (3 : Fin 5) * 1 + 1 * 0 = 0; omega
    | ⟨4, _⟩ => show win0_3.index t (4 : Fin 5) * 32 + 1 * d.val = d.val; omega

/-! ## The cover -/

/-- An index of the result array is in point `t`'s block iff each coordinate is in the block's range on its axis. -/
theorem mem_blk (t : Fin cfg0.N) (i : S16x8x256x256.Idx) :
    i ∈ ((cfg0.win 4).blk t).view.set ↔ ∀ a : Fin 4, win0_4.index t a * S1x1x256x256.size a ≤ (i a).val
      ∧ (i a).val < win0_4.index t a * S1x1x256x256.size a + S1x1x256x256.size a := by
  show i ∈ ((View.whole main_v1).slice (win0_4.rect t)).set ↔ _
  rw [View.set_slice_whole, Rect.mem_set_unit]
  exact Iff.rfl

/-- Every index of the result array lies in the block of the point of its batch entry and head. -/
theorem cover (i : S16x8x256x256.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 256 := (i 2).isLt
  have hi3 : (i 3).val < 256 := (i 3).isLt
  obtain ⟨t, ht⟩ := idx_onto ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-! ## The array, and the run -/

/-- THE RESULT ARRAY after the run is `attn` of the argument arrays. -/
theorem final (c : Dev nD) :
    (dats m 0 c).arrAt 4 cfg0.N
      = attn (m ((c : Thread nD τ).loc main_arg0)) (m ((c : Thread nD τ).loc main_arg1))
          (m ((c : Thread nD τ).loc main_arg3)) (m ((c : Thread nD τ).loc main_arg4)) := by
  have h := (dats m 0 c).arrAt_eq_of_cover 4
    (attn (V m c main_arg0) (V m c main_arg1) (m ((c : Thread nD τ).loc main_arg3)) (V m c main_arg4))
    (fun t _ => flushed_eq m c t) cover
  rw [V_main_arg0, V_main_arg1, V_main_arg4] at h
  exact h

/-- The kernel's run: it terminates without a fault, its result array `attn` of the arguments, the arguments unchanged. -/
theorem run : θ_run defs (onTc (τ := τ) (main (F := Ideal))) ⟨m, fun _ => 0, ρ⟩ fun r => ∀ c : Dev nD,
      r.2.mem ((c : Thread nD τ).loc main_v1)
        = attn (m ((c : Thread nD τ).loc main_arg0)) (m ((c : Thread nD τ).loc main_arg1))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Gat.Array

end
-- ==== Proof.lean ====
/-
  The claim: the kernel, its idealization and the reference each run to the end without a fault and leave their
  arguments unchanged; the idealization rewrote no operation; and, read over the extended reals, the idealized kernel and
  the idealized reference end with the same result from arguments that agree.

  The result is GATv2-style attention weights over f32[16, 8, 256, 256]: for a batch entry, a head, a query row `i` and
  a key row `j`, the score `∑ d, silu (q_i,d + k_j,d) * a_d`, replaced by the least finite f32 where the pair is masked,
  and the softmax of those along `j` (`Cert.Gat.attn`, Proof/Spec.lean).
  The reference computes it on whole arrays (Proof/RefIsSpec.lean). The kernel computes it one (batch entry, head) block
  per grid point (Proof/KernelBlock.lean: what a point leaves in its block; Proof/KernelArray.lean: the blocks are the
  rows of `attn` and cover the array). Both sides apply the same operations to the same values — the kernel's sigmoid
  and the reference's `1 / (1 + exp (-s))` are one function on the extended reals, a lane sum and the host's sum are the
  same finite sum, a maximum-reduce and the host's are the same fold of `max` — so no law of arithmetic is needed to
  join them and the precondition on the inputs is never opened.
-/
import proofs.«152168_j50929722196901_1_alg».proof.Defs
import proofs.«152168_j50929722196901_1_alg».proof.Proof.Gen.Kernel
import proofs.«152168_j50929722196901_1_alg».proof.Proof.Gen.Kernel.Skeleton
import proofs.«152168_j50929722196901_1_alg».proof.Proof.Gen.Kernel.Launch
import proofs.«152168_j50929722196901_1_alg».proof.Proof.Gen.Kernel.Points
import proofs.«152168_j50929722196901_1_alg».proof.Proof.Gen.Kernel.Frame
import proofs.«152168_j50929722196901_1_alg».proof.Proof.Gen.KernelIdeal
import proofs.«152168_j50929722196901_1_alg».proof.Proof.Gen.KernelIdeal.Skeleton
import proofs.«152168_j50929722196901_1_alg».proof.Proof.Gen.KernelIdeal.Launch
import proofs.«152168_j50929722196901_1_alg».proof.Proof.Gen.KernelIdeal.Points
import proofs.«152168_j50929722196901_1_alg».proof.Proof.Gen.KernelIdeal.Frame
import proofs.«152168_j50929722196901_1_alg».proof.Proof.Gen.ReferenceIdeal
import proofs.«152168_j50929722196901_1_alg».proof.Proof.Gen.KernelIdeal.Value
import proofs.«152168_j50929722196901_1_alg».proof.Proof.Gen.ReferenceIdeal.Run
import proofs.«152168_j50929722196901_1_alg».proof.Proof.Gen.ReferenceIdeal.Read
import proofs.«152168_j50929722196901_1_alg».proof.Proof.Gen.Pre_finite_inputs
import proofs.«152168_j50929722196901_1_alg».proof.Proof.Spec
import proofs.«152168_j50929722196901_1_alg».proof.Proof.RefIsSpec
import proofs.«152168_j50929722196901_1_alg».proof.Proof.KernelBlock
import proofs.«152168_j50929722196901_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel (hKernel := Cert.Kernel.Gen.facts)
    (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference is host operations only: its generated run, the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end at `attn` of their arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Gat.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Gat.Ref.result_eq, (hagree c).1, (hagree c).2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
